-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x56x56x384 : Shape := ⟨4, ![16, 56, 56, 384]⟩
abbrev S384 : Shape := ⟨1, ![384]⟩
abbrev S_ : Shape := ⟨0, ![]⟩

class Facts : Prop where
  bcast_S_S16x56x56x384 : S_.BroadcastsInDim S16x56x56x384 (![] : Fin 0 → Fin S16x56x56x384.rank)
  reducesTo_S16x56x56x384_S_d0_1_2_3 : S16x56x56x384.ReducesTo [0, 1, 2, 3] S_
  h_S_ : 0 < S_.numel
  bcast_S_S384 : S_.BroadcastsInDim S384 (![] : Fin 0 → Fin S384.rank)
  reducesTo_S384_S_d0 : S384.ReducesTo [0] S_

variable [Facts]

def fn {F : FTy → Type} [FloatOps F] (main_arg0 : FVec F S16x56x56x384 .f32) (main_arg1 : FVec F S384 .f32) (main_arg2 : FVec F S384 .f32) : IVec S_ 1 :=
  let main_v0 : FVec F S16x56x56x384 .f32 := Host.absf main_arg0
  let main_cst : FVec F S_ .f32 := constant S_ .f32 0x7F800000#32
  let main_v1 : FVec F S16x56x56x384 .f32 := broadcastInDim S16x56x56x384 ![] bcast_S_S16x56x56x384 main_cst
  let main_v2 : IVec S16x56x56x384 1 := cmpf .olt main_v0 main_v1
  let main_c : IVec S_ 1 := constantI S_ 1 1#1
  let main_v3 : IVec S_ 1 := (fun x v => Host.reduce IntOp.andi x v reducesTo_S16x56x56x384_S_d0_1_2_3 h_S_) main_v2 main_c
  let main_v4 : FVec F S384 .f32 := Host.absf main_arg1
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  main_v13
-- ==== Kernel.lean ====
abbrev S16x56x56x384 : Shape := ⟨4, ![16, 56, 56, 384]⟩
abbrev S384 : Shape := ⟨1, ![384]⟩
abbrev S50176x384 : Shape := ⟨2, ![50176, 384]⟩
abbrev S1x384 : Shape := ⟨2, ![1, 384]⟩
abbrev S6272x384 : Shape := ⟨2, ![6272, 384]⟩
abbrev S1568x384 : Shape := ⟨2, ![1568, 384]⟩
abbrev S1568 : Shape := ⟨1, ![1568]⟩
abbrev S1568x1 : Shape := ⟨2, ![1568, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x56x56x384, .f32⟩
  | .hbm, ⟨1, _⟩ => ⟨S384, .f32⟩
  | .hbm, ⟨2, _⟩ => ⟨S384, .f32⟩
  | .hbm, ⟨3, _⟩ => ⟨S50176x384, .f32⟩
  | .hbm, ⟨4, _⟩ => ⟨S1x384, .f32⟩
  | .hbm, ⟨5, _⟩ => ⟨S1x384, .f32⟩
  | .hbm, ⟨6, _⟩ => ⟨S50176x384, .f32⟩
  | .hbm, ⟨7, _⟩ => ⟨S16x56x56x384, .f32⟩
  | .local _ .vmem, ⟨0, _⟩ => ⟨S6272x384, .f32⟩
  | .local _ .vmem, ⟨1, _⟩ => ⟨S6272x384, .f32⟩
  | .local _ .vmem, ⟨2, _⟩ => ⟨S1x384, .f32⟩
  | .local _ .vmem, ⟨3, _⟩ => ⟨S1x384, .f32⟩
  | .local _ .vmem, ⟨4, _⟩ => ⟨S1568x384, .f32⟩
  | .local _ .vmem, ⟨5, _⟩ => ⟨S1568x384, .f32⟩
  | _, _ => ⟨S16x56x56x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let c1568_i32 : BitVec 32 := 1568#32
  let v0 : BitVec 32 := Scalar.muli arg1 c1568_i32
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S6272x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1568x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x56x56x384_S50176x384 : S16x56x56x384.ShapeCasts S50176x384
  shapeCasts_S384_S1x384 : S384.ShapeCasts S1x384
  h_S1568x384 : 0 < S1568x384.numel
  shapeCasts_S1568x384_S1568x384 : S1568x384.ShapeCasts S1568x384
  reduces_S1568x384_S1568 : S1568x384.Reduces [1] S1568
  shapeCasts_S1568_S1568x1 : S1568.ShapeCasts S1568x1
  broadcasts_S1568x1_S1568x384 : S1568x1.Broadcasts S1568x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1568x384 : S1x384.Broadcasts S1568x384
  inb_S1568x384_S1568x384_0_0 : ∀ a, (![0, 0] : Fin 2 → Nat) a + S1568x384.size a ≤ S1568x384.size a
  shapeCasts_S50176x384_S16x56x56x384 : S50176x384.ShapeCasts S16x56x56x384
  hrank0 : 0 < grid0.rank
  k0_off1_inb : ∀ i : grid0.Coords, ∀ a, (k0_off1 i) a + S1568x384.size a ≤ S6272x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x384.size a ≤ S50176x384.size a
  hwx0_0 : ∀ i : grid0.Coords, EltTy.bits .f32 = 32 ∨ (Rect.block (s := S50176x384) S6272x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1568x384.size a ≤ S50176x384.size a
  hwx0_3 : ∀ i : grid0.Coords, EltTy.bits .f32 = 32 ∨ (Rect.block (s := S50176x384) S1568x384.size (cc0_transform_3 i) (hinb0_3 i)).WholeWords (EltTy.packing .f32)

variable [Facts₀]

abbrev win0_0 : Pipeline.Window sig grid0 :=
  Pipeline.Window.ofSpec (Memref.whole main_v0) S6272x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1568x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x56x56x384 : Shape := ⟨4, ![16, 56, 56, 384]⟩
abbrev S384 : Shape := ⟨1, ![384]⟩
abbrev S50176x384 : Shape := ⟨2, ![50176, 384]⟩
abbrev S1x384 : Shape := ⟨2, ![1, 384]⟩
abbrev S2728x384 : Shape := ⟨2, ![2728, 384]⟩
abbrev S2728 : Shape := ⟨1, ![2728]⟩
abbrev S2728x1 : Shape := ⟨2, ![2728, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x56x56x384, .f32⟩
  | .hbm, ⟨1, _⟩ => ⟨S384, .f32⟩
  | .hbm, ⟨2, _⟩ => ⟨S384, .f32⟩
  | .hbm, ⟨3, _⟩ => ⟨S50176x384, .f32⟩
  | .hbm, ⟨4, _⟩ => ⟨S1x384, .f32⟩
  | .hbm, ⟨5, _⟩ => ⟨S1x384, .f32⟩
  | .hbm, ⟨6, _⟩ => ⟨S50176x384, .f32⟩
  | .hbm, ⟨7, _⟩ => ⟨S16x56x56x384, .f32⟩
  | .local _ .vmem, ⟨0, _⟩ => ⟨S2728x384, .f32⟩
  | .local _ .vmem, ⟨1, _⟩ => ⟨S2728x384, .f32⟩
  | .local _ .vmem, ⟨2, _⟩ => ⟨S1x384, .f32⟩
  | .local _ .vmem, ⟨3, _⟩ => ⟨S1x384, .f32⟩
  | .local _ .vmem, ⟨4, _⟩ => ⟨S2728x384, .f32⟩
  | .local _ .vmem, ⟨5, _⟩ => ⟨S2728x384, .f32⟩
  | _, _ => ⟨S16x56x56x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2728x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2728x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x56x56x384_S50176x384 : S16x56x56x384.ShapeCasts S50176x384
  shapeCasts_S384_S1x384 : S384.ShapeCasts S1x384
  inb_S2728x384_S2728x384_0_0 : ∀ a, (![0, 0] : Fin 2 → Nat) a + S2728x384.size a ≤ S2728x384.size a
  h_S2728x384 : 0 < S2728x384.numel
  shapeCasts_S2728x384_S2728x384 : S2728x384.ShapeCasts S2728x384
  reduces_S2728x384_S2728 : S2728x384.Reduces [1] S2728
  shapeCasts_S2728_S2728x1 : S2728.ShapeCasts S2728x1
  broadcasts_S2728x1_S2728x384 : S2728x1.Broadcasts S2728x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2728x384 : S1x384.Broadcasts S2728x384
  shapeCasts_S50176x384_S16x56x56x384 : S50176x384.ShapeCasts S16x56x56x384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2728x384.size a < S50176x384.size a
  hwx0_0 : ∀ i : grid0.Coords, EltTy.bits .f32 = 32 ∨ (Rect.unit (s := S50176x384) (fun a => cc0_transform_0 i a * S2728x384.size a) (fun a => (Pipeline.Clip.of (cc0_transform_0 i a) (S2728x384.size a) (S50176x384.size a)).extent (S2728x384.size a)) fun a => Pipeline.Clip.inb (Pipeline.Clip.ok_of (hstart0_0 i a))).WholeWords (EltTy.packing .f32)
  hwxs0_0 : ∀ i : grid0.Coords, EltTy.bits .f32 = 32 ∨ (Rect.unit (s := S2728x384) (fun _ => 0) (fun a => (Pipeline.Clip.of (cc0_transform_0 i a) (S2728x384.size a) (S50176x384.size a)).extent (S2728x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2728x384.size a < S50176x384.size a
  hwx0_3 : ∀ i : grid0.Coords, EltTy.bits .f32 = 32 ∨ (Rect.unit (s := S50176x384) (fun a => cc0_transform_3 i a * S2728x384.size a) (fun a => (Pipeline.Clip.of (cc0_transform_3 i a) (S2728x384.size a) (S50176x384.size a)).extent (S2728x384.size a)) fun a => Pipeline.Clip.inb (Pipeline.Clip.ok_of (hstart0_3 i a))).WholeWords (EltTy.packing .f32)
  hwxs0_3 : ∀ i : grid0.Coords, EltTy.bits .f32 = 32 ∨ (Rect.unit (s := S2728x384) (fun _ => 0) (fun a => (Pipeline.Clip.of (cc0_transform_3 i a) (S2728x384.size a) (S50176x384.size a)).extent (S2728x384.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v0) S2728x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S2728x384.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibColumn.lean ====
/-
  Two layout operations read at an index, for a vector kept as a column: the reshape of an [a] array to an
  [a, 1] column, and the broadcast of an [a, 1] column over b columns.  (The row forms [a] → [1, a] and
  [1, b] → [a, b] are in the library; a sum with keepdims along the last axis produces the column forms.)
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to a column `[a, 1]` reads, at `(i, u)`, the operand at `i`, whatever the unit coordinate `u`:
    both positions have the same row-major rank. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibRowNorm.lean ====
/-
  A row-normalising block at the ideal instance, read at an index.

  The block has `a` rows and `b` columns. For each row it takes the sum of the entries and the sum of their
  squares (a lane reduction kept as a column), scales both by a constant `κ` to a mean `μ` and a second moment,
  forms the variance `s₂·κ − μ²`, clamps it below at `z`, adds `ε`, takes the reciprocal square root `ρ`, and
  returns `((x − μ)·ρ)·w + β` with the scale `w` and the shift `β` one row each, broadcast down the rows.
  At the ideal instance every operation is the exact one on the extended reals, so the entry at (p, q) is a
  function of row p of the block, of the entry itself and of column q of the scale and the shift: `entry` below.
  In particular the rows of the block do not interact, which is what lets two different tilings of one array
  into row blocks compute the same array.
-/
import Idealize.ShloMosaic.PureOps.Ideal.Laws
import Idealize.ShloMosaic.Lib.ValueIdx
import Idealize.ShloMosaic.Lib.ValueLayout
import Idealize.ShloMosaic.Lib.Pipeline.Value
import proofs.«105684_g2000602440205941_pallasbulk_374_9_alg».proof.Proof.LibColumn

noncomputable section

namespace Idealize.ShloMosaic.RowNorm

open Idealize.ShloMosaic Idealize.ShloMosaic.ValueIdx

/-- One normalised entry: from its row `row`, the entry `xv` itself, and the scale `wv` and shift `bv` of its
    column; `κ` the reciprocal of the row length as the program spells it, `z` the clamp, `ε` the stabiliser. -/
def entry {b : ℕ} (κ z ε : EReal) (row : Fin b → EReal) (xv wv bv : EReal) : EReal :=
  (xv - (∑ k, row k) * κ)
      * Ideal.rsqrt (max ((∑ k, row k * row k) * κ - (∑ k, row k) * κ * ((∑ k, row k) * κ)) z + ε) * wv + bv

/-- The entry depends on the row only through its values. -/
theorem entry_congr {b : ℕ} (κ z ε : EReal) {row row' : Fin b → EReal} (h : ∀ k, row k = row' k) (xv wv bv : EReal) :
    entry κ z ε row xv wv bv = entry κ z ε row' xv wv bv := by
  rw [show row = row' from funext h]

/-- A reciprocal square root taken entry by entry reads, at an index, the reciprocal square root of the entry. -/
theorem rsqrt_apply {s : Shape} (v : FVec Ideal s .f32) (i : s.Idx) : rsqrt v i = Ideal.rsqrt (v i) := rfl

variable {a b : ℕ}

/-- The row sums of a block, kept as a column: the lane reduction of the block cast to `a` rows of one entry. -/
def rowSums (hr : (⟨2, ![a, b]⟩ : Shape).Reduces [1] ⟨1, ![a]⟩) (hc : (⟨1, ![a]⟩ : Shape).ShapeCasts ⟨2, ![a, 1]⟩)
    (x : FVec Ideal ⟨2, ![a, b]⟩ .f32) : FVec Ideal ⟨2, ![a, 1]⟩ .f32 :=
  shapeCast ⟨2, ![a, 1]⟩ (multiReduction .add [1] ⟨1, ![a]⟩ x 0x00000000#32 hr (.inl rfl) rfl) hc

/-- Row `p` of the column of row sums is the sum of row `p`. -/
theorem rowSums_apply (hr : (⟨2, ![a, b]⟩ : Shape).Reduces [1] ⟨1, ![a]⟩) (hc : (⟨1, ![a]⟩ : Shape).ShapeCasts ⟨2, ![a, 1]⟩)
    (x : FVec Ideal ⟨2, ![a, b]⟩ .f32) (p : Fin a) :
    rowSums hr hc x (ix2 p (0 : Fin 1)) = ∑ k : Fin b, x (ix2 p k) := by
  unfold rowSums
  rw [ColumnLayout.shapeCast_a_a1_apply]
  refine (Ideal.multiReduction_add_single x 0x00000000#32 hr (.inl rfl) rfl (ix1 p)).trans ?_
  refine Finset.sum_congr rfl fun k _ => congrArg x (funext fun ax => Fin.ext ?_)
  match ax with
  | ⟨0, _⟩ => rfl
  | ⟨1, _⟩ => rfl

/-- The block, operation by operation as a fused kernel body computes it. -/
def block (hr : (⟨2, ![a, b]⟩ : Shape).Reduces [1] ⟨1, ![a]⟩) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (cκ cz cε : BitVec 32)
    (x : FVec Ideal ⟨2, ![a, b]⟩ .f32) (w β : FVec Ideal ⟨2, ![1, b]⟩ .f32) : FVec Ideal ⟨2, ![a, b]⟩ .f32 :=
  have μ : FVec Ideal ⟨2, ![a, 1]⟩ .f32 := mulf (rowSums hr hc x) (broadcast ⟨2, ![a, 1]⟩ (Scalar.ofBits .f32 cκ))
  have m2 : FVec Ideal ⟨2, ![a, 1]⟩ .f32 := mulf (rowSums hr hc (mulf x x)) (broadcast ⟨2, ![a, 1]⟩ (Scalar.ofBits .f32 cκ))
  have v : FVec Ideal ⟨2, ![a, 1]⟩ .f32 := subf m2 (mulf μ μ)
  have ρ : FVec Ideal ⟨2, ![a, 1]⟩ .f32 :=
    rsqrt (addf (maximumf v (broadcast ⟨2, ![a, 1]⟩ (Scalar.ofBits .f32 cz))) (broadcast ⟨2, ![a, 1]⟩ (Scalar.ofBits .f32 cε)))
  addf (mulf (mulf (subf x (broadcastTo ⟨2, ![a, b]⟩ μ hcol)) (broadcastTo ⟨2, ![a, b]⟩ ρ hcol)) (broadcastTo ⟨2, ![a, b]⟩ w hrow))
    (broadcastTo ⟨2, ![a, b]⟩ β hrow)

/-- The block at (p, q) is the normalised entry of row p. -/
theorem block_apply (hr : (⟨2, ![a, b]⟩ : Shape).Reduces [1] ⟨1, ![a]⟩) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (cκ cz cε : BitVec 32)
    (x : FVec Ideal ⟨2, ![a, b]⟩ .f32) (w β : FVec Ideal ⟨2, ![1, b]⟩ .f32) (p : Fin a) (q : Fin b) :
    block hr hc hcol hrow cκ cz cε x w β (ix2 p q)
      = entry (Scalar.ofBits (F := Ideal) .f32 cκ) (Scalar.ofBits (F := Ideal) .f32 cz) (Scalar.ofBits (F := Ideal) .f32 cε)
          (fun k => x (ix2 p k)) (x (ix2 p q)) (w (ix2 (0 : Fin 1) q)) (β (ix2 (0 : Fin 1) q)) := by
  unfold block entry
  simp only [addf_apply, mulf_apply, subf_apply, maximumf_apply, broadcast_apply, ColumnLayout.broadcastTo_a1_ab_apply,
    broadcastTo_1b_ab_apply, rsqrt_apply, rowSums_apply]

/-- Two blocks that agree on row `p` agree, after normalisation, on row `p`. -/
theorem block_congr_row (hr : (⟨2, ![a, b]⟩ : Shape).Reduces [1] ⟨1, ![a]⟩) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (cκ cz cε : BitVec 32)
    (x x' : FVec Ideal ⟨2, ![a, b]⟩ .f32) (w β : FVec Ideal ⟨2, ![1, b]⟩ .f32) (p : Fin a)
    (h : ∀ k : Fin b, x (ix2 p k) = x' (ix2 p k)) (q : Fin b) :
    block hr hc hcol hrow cκ cz cε x w β (ix2 p q) = block hr hc hcol hrow cκ cz cε x' w β (ix2 p q) := by
  rw [block_apply, block_apply, h q]
  exact entry_congr _ _ _ h _ _ _

/-- Every row of an array of `n` rows normalised: the array a row-blocked kernel assembles, whatever its blocks. -/
def rows {n : ℕ} (κ z ε : EReal) (x : (⟨2, ![n, b]⟩ : Shape).Idx → EReal) (w β : (⟨2, ![1, b]⟩ : Shape).Idx → EReal) :
    (⟨2, ![n, b]⟩ : Shape).Idx → EReal :=
  fun j => entry κ z ε (fun k => x (ix2 (j 0 : Fin n) k)) (x j) (w (ix2 (0 : Fin 1) (j 1 : Fin b))) (β (ix2 (0 : Fin 1) (j 1 : Fin b)))

/-- The array at (r, q), with the coordinates named. -/
theorem rows_apply {n : ℕ} (κ z ε : EReal) (x : (⟨2, ![n, b]⟩ : Shape).Idx → EReal) (w β : (⟨2, ![1, b]⟩ : Shape).Idx → EReal)
    (r : Fin n) (q : Fin b) :
    rows κ z ε x w β (ix2 r q)
      = entry κ z ε (fun k => x (ix2 r k)) (x (ix2 r q)) (w (ix2 (0 : Fin 1) q)) (β (ix2 (0 : Fin 1) q)) := rfl

/-- A BLOCK OF THE ARRAY, NORMALISED, IS A BLOCK OF THE NORMALISED ARRAY: if row `p` of the block `X` is row `r` of the array
    `x`, and the block's scale and shift rows are the array's at column `q`, then the normalised block at (p, q) is the
    normalised array at (r, q) — whatever the other rows of the block hold. -/
theorem block_eq_rows {n : ℕ} (hr : (⟨2, ![a, b]⟩ : Shape).Reduces [1] ⟨1, ![a]⟩) (hc : (⟨1, ![a]⟩ : Shape).ShapeCasts ⟨2, ![a, 1]⟩)
    (hcol : (⟨2, ![a, 1]⟩ : Shape).Broadcasts ⟨2, ![a, b]⟩) (hrow : (⟨2, ![1, b]⟩ : Shape).Broadcasts ⟨2, ![a, b]⟩)
    (cκ cz cε : BitVec 32)
    (X : FVec Ideal ⟨2, ![a, b]⟩ .f32) (W B : FVec Ideal ⟨2, ![1, b]⟩ .f32)
    (x : (⟨2, ![n, b]⟩ : Shape).Idx → EReal) (w β : (⟨2, ![1, b]⟩ : Shape).Idx → EReal)
    (p : Fin a) (q : Fin b) (r : Fin n)
    (hX : ∀ k : Fin b, X (ix2 p k) = x (ix2 r k)) (hW : W (ix2 (0 : Fin 1) q) = w (ix2 (0 : Fin 1) q))
    (hB : B (ix2 (0 : Fin 1) q) = β (ix2 (0 : Fin 1) q)) :
    block hr hc hcol hrow cκ cz cε X W B (ix2 p q)
      = rows (Scalar.ofBits (F := Ideal) .f32 cκ) (Scalar.ofBits (F := Ideal) .f32 cz) (Scalar.ofBits (F := Ideal) .f32 cε) x w β (ix2 r q) := by
  rw [block_apply, rows_apply, hX q, hW, hB]
  exact entry_congr _ _ _ hX _ _ _

end Idealize.ShloMosaic.RowNorm

end
-- ==== Proof.Spec.lean ====
/-
  What both programs compute, as one function of the three argument arrays.

  The input [16, 56, 56, 384] is read as 50176 rows of 384 entries (a reshape, which keeps the row-major order), the
  scale and the shift [384] as one row each; every row is normalised (LibRowNorm: mean and variance over the row's 384
  entries with the reciprocal 1/384 as the programs spell it in f32, the variance clamped at 0, the stabiliser added,
  the reciprocal square root, then the scale and the shift); the 50176 rows are read back as [16, 56, 56, 384].
-/
import proofs.«105684_g2000602440205941_pallasbulk_374_9_alg».proof.Proof.LibRowNorm

noncomputable section

namespace Cert.Spec

open Idealize.ShloMosaic

abbrev A4 : Shape := ⟨4, ![16, 56, 56, 384]⟩
abbrev A2 : Shape := ⟨2, ![50176, 384]⟩
abbrev V1 : Shape := ⟨1, ![384]⟩
abbrev R1 : Shape := ⟨2, ![1, 384]⟩

/-- The three literals both kernel bodies carry: f32(1/384), zero, f32(1e-6). -/
abbrev cκ : BitVec 32 := 0x3B2AAAAB#32
abbrev cz : BitVec 32 := 0x00000000#32
abbrev cε : BitVec 32 := 0x358637BD#32

/-- The 50176 rows, each normalised. -/
def normalised (x : A2.Idx → EReal) (w β : R1.Idx → EReal) : A2.Idx → EReal :=
  RowNorm.rows (n := 50176) (b := 384) (Scalar.ofBits (F := Ideal) .f32 cκ) (Scalar.ofBits (F := Ideal) .f32 cz)
    (Scalar.ofBits (F := Ideal) .f32 cε) x w β

/-- The result array from the argument arrays: reshape, normalise the rows, reshape back. -/
def result (h0 : A4.ShapeCasts A2) (h1 : V1.ShapeCasts R1) (h3 : A2.ShapeCasts A4)
    (a0 : A4.Idx → EReal) (a1 a2 : V1.Idx → EReal) : A4.Idx → EReal :=
  shapeCast A4 (normalised (shapeCast A2 a0 h0) (shapeCast R1 a1 h1) (shapeCast R1 a2 h1)) h3

end Cert.Spec

end
-- ==== Proof.KerValue.lean ====
/-
  The kernel's result array, read off its frame run.

  The kernel's grid has 8 × 4 points. At point (i, j) the first operand's staging buffer holds rows 6272·i … of the
  50176-row array, the body loads the 1568 rows from 1568·j on, normalises each (LibRowNorm) and stores them as the
  output's block 4·i + j, which is rows 1568·(4·i + j) … of the result: the same rows. So every point writes back a
  block of the one array `Spec.normalised` of the operands as the region finds them, and the 32 blocks tile the result.
-/
import proofs.«105684_g2000602440205941_pallasbulk_374_9_alg».proof.Proof.Gen.KernelIdeal.Frame
import proofs.«105684_g2000602440205941_pallasbulk_374_9_alg».proof.Proof.Spec
import Idealize.ShloMosaic.PureOps.Ideal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.Spec (cκ cz cε)

theorem hz : (![0, 0] : Fin 2 → Nat) = fun _ => 0 := funext fun a => by fin_cases a <;> rfl

/-- What the body leaves in the output's staging buffer: its one store covers the buffer, and its payload is computed from
    the 1568 rows of the first operand's buffer that its load names and from the two one-row buffers read whole. -/
theorem out_A {F : FTy → Type} [FloatOps F] (c : Dev nD) (i : grid0.Coords)
    (a2 : Memref sig .tc .vmem S6272x384 .f32) (h2 : a2.IsWhole) (a3 : Memref sig .tc .vmem S1x384 .f32) (h3 : a3.IsWhole)
    (a4 : Memref sig .tc .vmem S1x384 .f32) (h4 : a4.IsWhole) (a5 : Memref sig .tc .vmem S1568x384 .f32) (h5 : a5.IsWhole)
    (x0 : Vec F S6272x384 .f32) (x1 : Vec F S1x384 .f32) (x2 : Vec F S1x384 .f32) :
    out0_A_3 c i a2 h2 a3 h3 a4 h4 a5 h5 x0 x1 x2
      = k0_pay1 (View.ld x0 (Rect.unit (s := S6272x384) (k0_off1 i) S1568x384.size (k0_off1_inb i))) x1 x2 := by
  unfold out0_A_3
  rw [View.read_writes_eq_canon _ _ _ (cover0_A_3 c i a2 h2 a3 h3 a4 h4 a5 h5 x0 x1 x2)]
  unfold kernelRun0_A
  dsimp only
  rw [View.canon_unit_zero hz]
  simp only [View.readAt_eq_ld, h2.read_unread, h3.read_unread, h4.read_unread, View.ld_unit_zero (S := S1x384) hz]

/-- The body's stored value is the row-normalising block of its three loads. -/
theorem pay_eq (v2 : Vec Ideal S1568x384 .f32) (v24 v28 : Vec Ideal S1x384 .f32) :
    k0_pay1 (F := Ideal) v2 v24 v28
      = RowNorm.block (a := 1568) (b := 384) reduces_S1568x384_S1568 shapeCasts_S1568_S1568x1 broadcasts_S1568x1_S1568x384
          broadcasts_S1x384_S1568x384 cκ cz cε v2 v24 v28 := by
  unfold k0_pay1 RowNorm.block RowNorm.rowSums
  simp only [shapeCast_self]

variable (m : (ℓ : Loc nD τ sig) → Buf (Elt Ideal) ℓ) (ρ : Dev nD → PrngReg)

/-- The result array of the region: every row of the first operand, as the region finds it, normalised. -/
abbrev G (c : Dev nD) : Buf (Elt Ideal) ((c : Thread nD τ).loc main_v3) :=
  Cert.Spec.normalised (V m c main_v0) (V m c main_v1) (V m c main_v2)

/-- The printed index maps and the body's load offset, decided over the grid: the rows the body loads are the rows of the
    output's block, the one-row operands sit at block (0, 0), and the output's block index is the point's number. -/
theorem idx_facts : ∀ t : Fin cfg0.N,
    win0_0.index t 0 * 6272 + k0_off1 (grid0.coords t) 0 = win0_3.index t 0 * 1568
    ∧ win0_0.index t 1 = 0 ∧ k0_off1 (grid0.coords t) 1 = 0 ∧ win0_3.index t 1 = 0
    ∧ win0_1.index t 0 = 0 ∧ win0_1.index t 1 = 0 ∧ win0_2.index t 0 = 0 ∧ win0_2.index t 1 = 0
    ∧ win0_3.index t 0 = t.val :=
  (by decide +kernel : ∀ t : Fin grid0.N,
    win0_0.index t 0 * 6272 + k0_off1 (grid0.coords t) 0 = win0_3.index t 0 * 1568
    ∧ win0_0.index t 1 = 0 ∧ k0_off1 (grid0.coords t) 1 = 0 ∧ win0_3.index t 1 = 0
    ∧ win0_1.index t 0 = 0 ∧ win0_1.index t 1 = 0 ∧ win0_2.index t 0 = 0 ∧ win0_2.index t 1 = 0
    ∧ win0_3.index t 0 = t.val)

/-- What point `t` writes back is block `t` of the normalised array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]; unfold outsAt0; rw [out_A, pay_eq]
  obtain ⟨e0, e1, e2, e3, e4, e5, e6, e7, e8⟩ := idx_facts t
  funext y
  have hy0 : (y 0).val < 1568 := (y 0).isLt
  have hy1 : (y 1).val < 384 := (y 1).isLt
  have hN : cfg0.N = 32 := N_0
  have hr : win0_3.index t 0 * 1568 + (y 0).val < 50176 := by rw [e8]; have := t.isLt; omega
  have e : win0_3.xinj (grid0.coords t) y = ix2 (⟨(y 0).val, hy0⟩ : Fin 1568) (⟨(y 1).val, hy1⟩ : Fin 384) :=
    funext fun a => by match a with | ⟨0, _⟩ => rfl | ⟨1, _⟩ => rfl
  have hemb : ((cfg0.win 3).blk t).view.emb y
      = ix2 (⟨win0_3.index t 0 * 1568 + (y 0).val, hr⟩ : Fin 50176) (⟨(y 1).val, hy1⟩ : Fin 384) := by
    funext a; apply Fin.ext
    match a with
    | ⟨0, _⟩ => show win0_3.index t 0 * 1568 + 1 * (y 0).val = win0_3.index t 0 * 1568 + (y 0).val; omega
    | ⟨1, _⟩ => show win0_3.index t 1 * 384 + 1 * (y 1).val = (y 1).val; omega
  show RowNorm.block _ _ _ _ cκ cz cε _ _ _ (win0_3.xinj (grid0.coords t) y) = G m c (((cfg0.win 3).blk t).view.emb y)
  rw [e, hemb]
  refine RowNorm.block_eq_rows _ _ _ _ _ _ _ _ _ _ _ _ _ _ _ _ (fun k => ?_) ?_ ?_
  · show V m c main_v0 (((cfg0.win 0).blk t).view.emb
        ((Rect.unit (s := S6272x384) (k0_off1 (grid0.coords t)) S1568x384.size (k0_off1_inb (grid0.coords t))).idx
          (ix2 (⟨(y 0).val, hy0⟩ : Fin 1568) k))) = V m c main_v0 (ix2 (⟨win0_3.index t 0 * 1568 + (y 0).val, hr⟩ : Fin 50176) k)
    refine congrArg _ (funext fun a => Fin.ext ?_)
    match a with
    | ⟨0, _⟩ =>
      show win0_0.index t 0 * 6272 + 1 * (k0_off1 (grid0.coords t) 0 + 1 * (y 0).val) = win0_3.index t 0 * 1568 + (y 0).val
      omega
    | ⟨1, _⟩ =>
      show win0_0.index t 1 * 384 + 1 * (k0_off1 (grid0.coords t) 1 + 1 * k.val) = k.val
      omega
  · show V m c main_v1 (((cfg0.win 1).blk t).view.emb (ix2 (0 : Fin 1) (⟨(y 1).val, hy1⟩ : Fin 384)))
        = V m c main_v1 (ix2 (0 : Fin 1) (⟨(y 1).val, hy1⟩ : Fin 384))
    refine congrArg _ (funext fun a => Fin.ext ?_)
    match a with
    | ⟨0, _⟩ => show win0_1.index t 0 * 1 + 1 * 0 = 0; omega
    | ⟨1, _⟩ => show win0_1.index t 1 * 384 + 1 * (y 1).val = (y 1).val; omega
  · show V m c main_v2 (((cfg0.win 2).blk t).view.emb (ix2 (0 : Fin 1) (⟨(y 1).val, hy1⟩ : Fin 384)))
        = V m c main_v2 (ix2 (0 : Fin 1) (⟨(y 1).val, hy1⟩ : Fin 384))
    refine congrArg _ (funext fun a => Fin.ext ?_)
    match a with
    | ⟨0, _⟩ => show win0_2.index t 0 * 1 + 1 * 0 = 0; omega
    | ⟨1, _⟩ => show win0_2.index t 1 * 384 + 1 * (y 1).val = (y 1).val; omega

/-- An index of the result array is in point `t`'s block iff its row is among the block's 1568 rows. -/
theorem mem_blk (t : Fin cfg0.N) (i : S50176x384.Idx) :
    i ∈ ((cfg0.win 3).blk t).view.set ↔ ∀ a : Fin 2, win0_3.index t a * S1568x384.size a ≤ (i a).val
      ∧ (i a).val < win0_3.index t a * S1568x384.size a + S1568x384.size a := by
  show i ∈ ((View.whole main_v3).slice (win0_3.rect t)).set ↔ _
  rw [View.set_slice_whole, Rect.mem_set_unit]
  exact Iff.rfl

/-- The result array after the run is the normalised array: row `r` lies in the block of point `r / 1568`. -/
theorem final (c : Dev nD) : (dats m 0 c).arrAt 3 cfg0.N = G m c :=
  (dats m 0 c).arrAt_eq_of_cover 3 (G m c) (fun t _ => flushed_eq m c t) fun i => by
    have hi0 : (i 0).val < 50176 := (i 0).isLt
    have hi1 : (i 1).val < 384 := (i 1).isLt
    have hN : cfg0.N = 32 := N_0
    refine ⟨⟨(i 0).val / 1568, by omega⟩, flush0_3 _, ?_⟩
    rw [mem_blk]
    obtain ⟨e0, e1, e2, e3, e4, e5, e6, e7, e8⟩ := idx_facts ⟨(i 0).val / 1568, by omega⟩
    intro a
    match a with
    | ⟨0, _⟩ =>
      show win0_3.index ⟨(i 0).val / 1568, _⟩ 0 * 1568 ≤ (i 0).val ∧ (i 0).val < win0_3.index ⟨(i 0).val / 1568, _⟩ 0 * 1568 + 1568
      rw [e8]; dsimp only; omega
    | ⟨1, _⟩ =>
      show win0_3.index ⟨(i 0).val / 1568, _⟩ 1 * 384 ≤ (i 1).val ∧ (i 1).val < win0_3.index ⟨(i 0).val / 1568, _⟩ 1 * 384 + 384
      rw [e3]; omega

end Cert.KernelIdeal.Hand

end
-- ==== Proof.KerRun.lean ====
/-
  The kernel's program around its region: it reshapes the argument to 50176 rows and the scale and shift to one row each
  before the region, and reads the result's rows back as [16, 56, 56, 384] after it. With the region's result array known
  (KerValue) the program's result is the specification's function of the argument arrays.
-/
import proofs.«105684_g2000602440205941_pallasbulk_374_9_alg».proof.Proof.KerValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The region finds the first operand as the argument read as 50176 rows, -/
theorem V_v0 (c : Dev nD) : (V m c main_v0 : S50176x384.Idx → EReal)
    = shapeCast S50176x384 (m ((c : Thread nD τ).loc main_arg0)) shapeCasts_S16x56x56x384_S50176x384 := by
  show StableHlo.after hostOps0 (fun b => m (c, b)) (Proc.devRef .tc main_v0) = _
  after_results; rfl
/-- the scale as one row, -/
theorem V_v1 (c : Dev nD) : (V m c main_v1 : S1x384.Idx → EReal)
    = shapeCast S1x384 (m ((c : Thread nD τ).loc main_arg1)) shapeCasts_S384_S1x384 := by
  show StableHlo.after hostOps0 (fun b => m (c, b)) (Proc.devRef .tc main_v1) = _
  after_results; rfl
/-- and the shift as one row. -/
theorem V_v2 (c : Dev nD) : (V m c main_v2 : S1x384.Idx → EReal)
    = shapeCast S1x384 (m ((c : Thread nD τ).loc main_arg2)) shapeCasts_S384_S1x384 := by
  show StableHlo.after hostOps0 (fun b => m (c, b)) (Proc.devRef .tc main_v2) = _
  after_results; rfl

/-- After the region the program reads the result's 50176 rows back as [16, 56, 56, 384]. -/
theorem tail_v4 (c : Dev nD) : Pipeline.afterTail₀ cfgs (dats m) 0 (V0 m) [hostOps1] c main_v4
    = Cert.Spec.result shapeCasts_S16x56x56x384_S50176x384 shapeCasts_S384_S1x384 shapeCasts_S50176x384_S16x56x56x384
        (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [(Pipeline.withArrays_arr spec0 launch0.win.arr_inj c _ _ 3).trans (final m c)]
  unfold Cert.Spec.result
  rw [← V_v0, ← V_v1, ← V_v2]
  rfl

/-- The run, read: the result is the specification's function of the argument arrays, which end as launched. -/
theorem run : θ_run defs (onTc (τ := τ) (main (F := Ideal))) ⟨m, fun _ => 0, ρ⟩ fun r => ∀ c : Dev nD,
      r.2.mem ((c.tc : Thread nD τ).loc main_v4)
        = Cert.Spec.result shapeCasts_S16x56x56x384_S50176x384 shapeCasts_S384_S1x384 shapeCasts_S50176x384_S16x56x56x384
            (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefBody.lean ====
/-
  The reference's launch, by hand: its one region runs a fused row normalisation over blocks of 2728 rows of a
  50176-row array, so the nineteenth block overhangs the array by 1656 rows. A fetch of that block fills only the
  first 1072 rows of the staging buffer; the rest holds words nothing names, and the body normalises them too.
  Because the normalisation of a row reads that row only (LibRowNorm), the 1072 rows the write-back copies out
  do not depend on the unnamed rows. This module states what each staging buffer holds after the body on the rows
  its transfers move, runs the body once on arbitrary whole buffers, and discharges the per-point obligation; the
  run of the whole program and its frame follow from the library's launch theorem.
-/
import proofs.«105684_g2000602440205941_pallasbulk_374_9_alg».proof.Proof.Gen.ReferenceIdeal.Frame
import proofs.«105684_g2000602440205941_pallasbulk_374_9_alg».proof.Proof.Gen.ReferenceIdeal.Skeleton
import proofs.«105684_g2000602440205941_pallasbulk_374_9_alg».proof.Proof.Spec
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! ## The body on arbitrary whole buffers -/

section Body

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The body, given the three input buffers at contents `x0`, `x1`, `x2` and the output buffer at anything, returns the
    inputs as they were and the output buffer holding the body's one stored value computed from `x0`, `x1`, `x2`: its
    three loads read whole buffers and its one store overwrites the whole output buffer. -/
theorem body_run (c : Dev nD) (i : grid0.Coords)
    (arg1 : Memref sig .tc .vmem S2728x384 .f32) (harg1 : arg1.IsWhole) (arg2 : Memref sig .tc .vmem S1x384 .f32) (harg2 : arg2.IsWhole)
    (arg3 : Memref sig .tc .vmem S1x384 .f32) (harg3 : arg3.IsWhole) (arg4 : Memref sig .tc .vmem S2728x384 .f32) (harg4 : arg4.IsWhole)
    (x0 : Vec F S2728x384 .f32) (x1 : Vec F S1x384 .f32) (x2 : Vec F S1x384 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (F := F) x0 x1 x2)) -∗ K ⟨⟩))
      ⊢ wp frame (wpE (defs₀ (F := F)) Variants.none c none) E (cc0__ln_rows_kernel i arg1 harg1 arg2 harg2 arg3 harg3 arg4 harg4) K := by
  simp only [cc0__ln_rows_kernel_eq_skeleton]; unfold cc0__ln_rows_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [View.read_writes_eq_canon _ _ _ (fun y => ⟨_, List.mem_singleton.mpr rfl, View.mem_set_unit_zero hz inb_S2728x384_S2728x384_0_0 y⟩),
    View.canon_unit_zero hz]
  simp only [View.readAt_eq_ld, harg1.read_unread, harg2.read_unread, harg3.read_unread,
    View.ld_unit_zero (S := S2728x384) hz, View.ld_unit_zero (S := S1x384) hz]

end Body

/-! ## The body's value at the ideal instance -/

open Cert.Spec (cκ cz cε)

/-- The body's stored value is the row-normalising block of its three loads. -/
theorem pay_eq (x0 : Vec Ideal S2728x384 .f32) (x1 x2 : Vec Ideal S1x384 .f32) :
    k0_pay1 (F := Ideal) x0 x1 x2
      = RowNorm.block (a := 2728) (b := 384) reduces_S2728x384_S2728 shapeCasts_S2728_S2728x1 broadcasts_S2728x1_S2728x384
          broadcasts_S1x384_S2728x384 cκ cz cε x0 x1 x2 := by
  unfold k0_pay1 RowNorm.block RowNorm.rowSums
  simp only [shapeCast_self]

local notation "𝕄" => MT nD τ sig Unit (Elt Ideal) ℕ (UR sig nD τ) ℕ

variable (m : (ℓ : Loc nD τ sig) → Buf (Elt Ideal) ℓ) (ρ : Dev nD → PrngReg)

/-! ## The proof data -/

/-- The array block of the first operand at point `t`, filled out to the staging buffer's 2728 rows with zeros. -/
def xpad (c : Dev nD) (t : Fin cfg0.N) : S2728x384.Idx → Elt Ideal .f32 :=
  win0_0.fill (grid0.coords t) (fun _ => (0 : EReal)) (iblk m c 0 t)

/-- The proof data: the arrays as the region finds them; after the body at point `t` the first operand's buffer at its
    block (zero-filled past the array's end: the obligation states it on the moved rows only), the two one-row operands'
    buffers at their blocks, and the result's buffer at the body's value of those. -/
def dats (_ : Fin 1) (c : Dev nD) : Dat τ (Elt Ideal) Unit ℕ (UR sig nD τ) ℕ cfg0 c where
  A w := V m c (Pipeline.arrRef spec0 w)
  after w t := match w with
    | ⟨0, _⟩ => xpad m c t
    | ⟨1, _⟩ => iblk m c 1 t
    | ⟨2, _⟩ => iblk m c 2 t
    | ⟨3, _⟩ => k0_pay1 (F := Ideal) (xpad m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xpad m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay1 (F := Ideal) (xpad m c t) (iblk m c 1 t) (iblk m c 2 t) := by dsimp only [dats]

/-- The first operand's buffer is fetched at every point: the body finds the block on the moved rows, `d` elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Rows inside the array do not see the rows past its end -/

/-- Over the grid: the two row-blocked windows cut alike, and neither is cut along the columns. -/
theorem cuts : ∀ t : Fin cfg0.N, win0_3.xsize (grid0.coords t) 0 = win0_0.xsize (grid0.coords t) 0
    ∧ win0_0.xsize (grid0.coords t) 1 = 384 ∧ win0_3.xsize (grid0.coords t) 1 = 384 :=
  (by decide +kernel : ∀ t : Fin grid0.N, win0_3.xsize (grid0.coords t) 0 = win0_0.xsize (grid0.coords t) 0
    ∧ win0_0.xsize (grid0.coords t) 1 = 384 ∧ win0_3.xsize (grid0.coords t) 1 = 384)

/-- On a row the fetch moves, the filled block does not depend on the filler. -/
theorem fill_row (c : Dev nD) (t : Fin cfg0.N) (d d' : S2728x384.Idx → Elt Ideal .f32) (p : Fin 2728) (k : Fin 384)
    (hp : p.val < win0_0.xsize (grid0.coords t) 0) :
    win0_0.fill (grid0.coords t) d (iblk m c 0 t) (ix2 p k) = win0_0.fill (grid0.coords t) d' (iblk m c 0 t) (ix2 p k) := by
  have hm : win0_0.moved (grid0.coords t) (ix2 p k) = true := (win0_0.moved_iff _ _).mpr fun a => by
    match a with
    | ⟨0, _⟩ => exact hp
    | ⟨1, _⟩ => show k.val < win0_0.xsize (grid0.coords t) 1; rw [(cuts t).2.1]; exact k.isLt
  unfold Window.fill; rw [dif_pos hm, dif_pos hm]

/-- So the rows the write-back moves are the same whatever filled the first operand's buffer past the array's end. -/
theorem cut_pay (c : Dev nD) (t : Fin cfg0.N) (d d' : S2728x384.Idx → Elt Ideal .f32) (x1 x2 : Vec Ideal S1x384 .f32) :
    win0_3.cut (grid0.coords t) (k0_pay1 (F := Ideal) (win0_0.fill (grid0.coords t) d (iblk m c 0 t)) x1 x2)
      = win0_3.cut (grid0.coords t) (k0_pay1 (F := Ideal) (win0_0.fill (grid0.coords t) d' (iblk m c 0 t)) x1 x2) := by
  funext y
  have h0 : (y 0).val < win0_0.xsize (grid0.coords t) 0 := (cuts t).1 ▸ (y 0).isLt
  have h0' : (y 0).val < 2728 := Nat.lt_of_lt_of_le h0 (win0_0.xsize_le _ 0)
  have h1 : (y 1).val < 384 := (cuts t).2.2 ▸ (y 1).isLt
  have e : win0_3.xinj (grid0.coords t) y = ix2 (⟨(y 0).val, h0'⟩ : Fin 2728) (⟨(y 1).val, h1⟩ : Fin 384) :=
    funext fun a => by match a with | ⟨0, _⟩ => rfl | ⟨1, _⟩ => rfl
  show k0_pay1 (F := Ideal) _ x1 x2 (win0_3.xinj (grid0.coords t) y) = k0_pay1 (F := Ideal) _ x1 x2 (win0_3.xinj (grid0.coords t) y)
  rw [e, pay_eq, pay_eq]
  exact RowNorm.block_congr_row _ _ _ _ _ _ _ _ _ _ _ _ (fun k => fill_row m c t d d' _ k h0) _

/-! ## The obligation at every point -/

/-- At every point the body, handed the buffers as the pipeline leaves them, returns them as the proof data says on
    the rows their transfers move. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (body_run (F := Ideal) c (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (iblk m c 0 t)) (iblk m c 1 t) (iblk m c 2 t) Set.univ _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after0_0]; unfold xpad; rw [win0_0.cut_fill]
    iexact H0
  isplitl [H1]
  · rw [after0_1]; iexact H1
  isplitl [H2]
  · rw [after0_2]; iexact H2
  · iexists (k0_pay1 (F := Ideal) (win0_0.fill (grid0.coords t) d0 (iblk m c 0 t)) (iblk m c 1 t) (iblk m c 2 t))
    rw [after0_3]; unfold xpad
    have e : (win0 3).fill (grid0.coords t)
          (k0_pay1 (F := Ideal) (win0_0.fill (grid0.coords t) d0 (iblk m c 0 t)) (iblk m c 1 t) (iblk m c 2 t))
          ((win0 3).cut (grid0.coords t)
            (k0_pay1 (F := Ideal) (win0_0.fill (grid0.coords t) (fun _ => (0 : EReal)) (iblk m c 0 t)) (iblk m c 1 t) (iblk m c 2 t)))
        = k0_pay1 (F := Ideal) (win0_0.fill (grid0.coords t) d0 (iblk m c 0 t)) (iblk m c 1 t) (iblk m c 2 t) :=
      win0_3.fill_congr_cut (grid0.coords t) (cut_pay m c t d0 (fun _ => (0 : EReal)) (iblk m c 1 t) (iblk m c 2 t))
    rw [e]
    iexact H3

/-! ## The run and the frame -/

set_option backward.isDefEq.respectTransparency.types false in
/-- Every weakly fair execution of the program terminates, and every final state has each array of the pipeline at what the
    library computes from the proof data and every other buffer as the reshape after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its three argument arrays as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Hand

end
-- ==== Proof.RefValue.lean ====
/-
  The reference's result array, read off its hand-made frame run.

  The reference's grid has 19 points; point `t` stages rows 2728·t … of the 50176-row array, normalises the staging
  buffer's 2728 rows, and writes back the rows that lie inside the array: all 2728 for t < 18, the first 1072 at t = 18.
  A row the write-back moves was normalised from the same row of the array (the fetch moved it too), so each point writes
  back a block of the one array `Spec.normalised` of the operands as the region finds them; the 19 cut blocks tile the
  50176 rows. Around the region the program reshapes its arguments to rows and the result back.
-/
import proofs.«105684_g2000602440205941_pallasbulk_374_9_alg».proof.Proof.RefBody
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.Spec (cκ cz cε)

variable (m : (ℓ : Loc nD τ sig) → Buf (Elt Ideal) ℓ) (ρ : Dev nD → PrngReg)

/-- The result array of the region: every row of the first operand, as the region finds it, normalised. -/
abbrev G (c : Dev nD) : Buf (Elt Ideal) ((c : Thread nD τ).loc main_v3) :=
  Cert.Spec.normalised (V m c main_v0) (V m c main_v1) (V m c main_v2)

/-- The printed index maps and cuts, decided over the grid: the two row-blocked windows sit at block (t, 0), the one-row
    operands at block (0, 0), and the rows a transfer moves at point `t` are all 2728 while the block ends inside the array,
    else those up to the array's end. -/
theorem idx_facts : ∀ t : Fin cfg0.N,
    win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0
    ∧ ((win0_3.xsize (grid0.coords t) 0 = 2728 ∧ (t.val + 1) * 2728 ≤ 50176)
        ∨ (t.val * 2728 + win0_3.xsize (grid0.coords t) 0 = 50176 ∧ 50176 < (t.val + 1) * 2728)) :=
  (by decide +kernel : ∀ t : Fin grid0.N,
    win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0
    ∧ ((win0_3.xsize (grid0.coords t) 0 = 2728 ∧ (t.val + 1) * 2728 ≤ 50176)
        ∨ (t.val * 2728 + win0_3.xsize (grid0.coords t) 0 = 50176 ∧ 50176 < (t.val + 1) * 2728)))

/-- On a row the fetch moves, the zero-filled block holds the array's row. -/
theorem xpad_apply (c : Dev nD) (t : Fin cfg0.N) (p : Fin 2728) (k : Fin 384) (hp : p.val < win0_0.xsize (grid0.coords t) 0)
    (r : Fin 50176) (hr : r.val = win0_0.index t 0 * 2728 + p.val) :
    xpad m c t (ix2 p k) = V m c main_v0 (ix2 r k) := by
  have hm : win0_0.moved (grid0.coords t) (ix2 p k) = true := (win0_0.moved_iff _ _).mpr fun a => by
    match a with
    | ⟨0, _⟩ => exact hp
    | ⟨1, _⟩ => show k.val < win0_0.xsize (grid0.coords t) 1; rw [(cuts t).2.1]; exact k.isLt
  obtain ⟨e0, e1, -⟩ := idx_facts t
  unfold xpad Window.fill; rw [dif_pos hm]
  show V m c main_v0 (((cfg0.win 0).blk t).view.emb _) = V m c main_v0 (ix2 r k)
  refine congrArg _ (funext fun a => Fin.ext ?_)
  match a with
  | ⟨0, _⟩ => show win0_0.index t 0 * 2728 + 1 * p.val = r.val; omega
  | ⟨1, _⟩ => show win0_0.index t 1 * 384 + 1 * k.val = k.val; omega

/-- What point `t` writes back is the cut block `t` of the normalised array. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, pay_eq]
  obtain ⟨e0, e1, e2, e3, e4, e5, e6, e7, e8⟩ := idx_facts t
  obtain ⟨c0, c1, c2⟩ := cuts t
  funext y
  have h3 : (y 0).val < win0_3.xsize (grid0.coords t) 0 := (y 0).isLt
  have h0 : (y 0).val < win0_0.xsize (grid0.coords t) 0 := c0 ▸ h3
  have hy0 : (y 0).val < 2728 := Nat.lt_of_lt_of_le h0 (win0_0.xsize_le _ 0)
  have hy1 : (y 1).val < 384 := c2 ▸ (y 1).isLt
  have hr : win0_3.index t 0 * 2728 + (y 0).val < 50176 := by rw [e2]; omega
  have e : win0_3.xinj (grid0.coords t) y = ix2 (⟨(y 0).val, hy0⟩ : Fin 2728) (⟨(y 1).val, hy1⟩ : Fin 384) :=
    funext fun a => by match a with | ⟨0, _⟩ => rfl | ⟨1, _⟩ => rfl
  have hemb : ((cfg0.win 3).blk t).view.emb y
      = ix2 (⟨win0_3.index t 0 * 2728 + (y 0).val, hr⟩ : Fin 50176) (⟨(y 1).val, hy1⟩ : Fin 384) := by
    funext a; apply Fin.ext
    match a with
    | ⟨0, _⟩ => show win0_3.index t 0 * 2728 + 1 * (y 0).val = win0_3.index t 0 * 2728 + (y 0).val; omega
    | ⟨1, _⟩ => show win0_3.index t 1 * 384 + 1 * (y 1).val = (y 1).val; omega
  show RowNorm.block _ _ _ _ cκ cz cε _ _ _ (win0_3.xinj (grid0.coords t) y) = G m c (((cfg0.win 3).blk t).view.emb y)
  rw [e, hemb]
  refine RowNorm.block_eq_rows _ _ _ _ _ _ _ _ _ _ _ _ _ _ _ _ (fun k => ?_) ?_ ?_
  · exact xpad_apply m c t _ k h0 _ (by show win0_3.index t 0 * 2728 + (y 0).val = win0_0.index t 0 * 2728 + (y 0).val; omega)
  · show V m c main_v1 (((cfg0.win 1).blk t).view.emb (ix2 (0 : Fin 1) (⟨(y 1).val, hy1⟩ : Fin 384)))
        = V m c main_v1 (ix2 (0 : Fin 1) (⟨(y 1).val, hy1⟩ : Fin 384))
    refine congrArg _ (funext fun a => Fin.ext ?_)
    match a with
    | ⟨0, _⟩ => show win0_1.index t 0 * 1 + 1 * 0 = 0; omega
    | ⟨1, _⟩ => show win0_1.index t 1 * 384 + 1 * (y 1).val = (y 1).val; omega
  · show V m c main_v2 (((cfg0.win 2).blk t).view.emb (ix2 (0 : Fin 1) (⟨(y 1).val, hy1⟩ : Fin 384)))
        = V m c main_v2 (ix2 (0 : Fin 1) (⟨(y 1).val, hy1⟩ : Fin 384))
    refine congrArg _ (funext fun a => Fin.ext ?_)
    match a with
    | ⟨0, _⟩ => show win0_2.index t 0 * 1 + 1 * 0 = 0; omega
    | ⟨1, _⟩ => show win0_2.index t 1 * 384 + 1 * (y 1).val = (y 1).val; omega

/-- An index of the result array is in point `t`'s cut block iff its row is among the rows the write-back moves. -/
theorem mem_blk (t : Fin cfg0.N) (i : S50176x384.Idx) :
    i ∈ ((cfg0.win 3).blk t).view.set ↔ ∀ a : Fin 2, win0_3.index t a * S2728x384.size a ≤ (i a).val
      ∧ (i a).val < win0_3.index t a * S2728x384.size a + win0_3.xsize (grid0.coords t) a := by
  show i ∈ ((View.whole main_v3).slice (win0_3.rect t)).set ↔ _
  rw [View.set_slice_whole, Rect.mem_set_unit]
  exact Iff.rfl

/-- The result array after the run is the normalised array: row `r` lies in the cut block of point `r / 2728`. -/
theorem final (c : Dev nD) : (dats m 0 c).arrAt 3 cfg0.N = G m c :=
  (dats m 0 c).arrAt_eq_of_cover 3 (G m c) (fun t _ => flushed_eq m c t) fun i => by
    have hi0 : (i 0).val < 50176 := (i 0).isLt
    have hi1 : (i 1).val < 384 := (i 1).isLt
    have hN : cfg0.N = 19 := N_0
    refine ⟨⟨(i 0).val / 2728, by omega⟩, flush0_3 _, ?_⟩
    rw [mem_blk]
    obtain ⟨e0, e1, e2, e3, e4, e5, e6, e7, e8⟩ := idx_facts ⟨(i 0).val / 2728, by omega⟩
    obtain ⟨c0, c1, c2⟩ := cuts ⟨(i 0).val / 2728, by omega⟩
    dsimp only at e2 e8
    intro a
    match a with
    | ⟨0, _⟩ =>
      show win0_3.index ⟨(i 0).val / 2728, _⟩ 0 * 2728 ≤ (i 0).val
        ∧ (i 0).val < win0_3.index ⟨(i 0).val / 2728, _⟩ 0 * 2728 + win0_3.xsize (grid0.coords ⟨(i 0).val / 2728, _⟩) 0
      rw [e2]; omega
    | ⟨1, _⟩ =>
      show win0_3.index ⟨(i 0).val / 2728, _⟩ 1 * 384 ≤ (i 1).val
        ∧ (i 1).val < win0_3.index ⟨(i 0).val / 2728, _⟩ 1 * 384 + win0_3.xsize (grid0.coords ⟨(i 0).val / 2728, _⟩) 1
      rw [e3, c2]; omega

/-! ## Around the region -/

/-- The region finds the first operand as the argument read as 50176 rows, -/
theorem V_v0 (c : Dev nD) : (V m c main_v0 : S50176x384.Idx → EReal)
    = shapeCast S50176x384 (m ((c : Thread nD τ).loc main_arg0)) shapeCasts_S16x56x56x384_S50176x384 := by
  show StableHlo.after hostOps0 (fun b => m (c, b)) (Proc.devRef .tc main_v0) = _
  after_results; rfl
/-- the scale as one row, -/
theorem V_v1 (c : Dev nD) : (V m c main_v1 : S1x384.Idx → EReal)
    = shapeCast S1x384 (m ((c : Thread nD τ).loc main_arg1)) shapeCasts_S384_S1x384 := by
  show StableHlo.after hostOps0 (fun b => m (c, b)) (Proc.devRef .tc main_v1) = _
  after_results; rfl
/-- and the shift as one row. -/
theorem V_v2 (c : Dev nD) : (V m c main_v2 : S1x384.Idx → EReal)
    = shapeCast S1x384 (m ((c : Thread nD τ).loc main_arg2)) shapeCasts_S384_S1x384 := by
  show StableHlo.after hostOps0 (fun b => m (c, b)) (Proc.devRef .tc main_v2) = _
  after_results; rfl

/-- After the region the program reads the result's 50176 rows back as [16, 56, 56, 384]. -/
theorem tail_v4 (c : Dev nD) : Pipeline.afterTail₀ cfgs (dats m) 0 (V0 m) [hostOps1] c main_v4
    = Cert.Spec.result shapeCasts_S16x56x56x384_S50176x384 shapeCasts_S384_S1x384 shapeCasts_S50176x384_S16x56x56x384
        (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [(Pipeline.withArrays_arr spec0 launch0.win.arr_inj c _ _ 3).trans (final m c)]
  unfold Cert.Spec.result
  rw [← V_v0, ← V_v1, ← V_v2]
  rfl

/-- The run, read: the result is the specification's function of the argument arrays, which end as launched. -/
theorem run : θ_run defs (onTc (τ := τ) (main (F := Ideal))) ⟨m, fun _ => 0, ρ⟩ fun r => ∀ c : Dev nD,
      r.2.mem ((c.tc : Thread nD τ).loc main_v4)
        = Cert.Spec.result shapeCasts_S16x56x56x384_S50176x384 shapeCasts_S384_S1x384 shapeCasts_S50176x384_S16x56x56x384
            (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Hand

end
-- ==== Proof.lean ====
/-
  The certificate: a fused LayerNorm kernel against a fused LayerNorm reference, equal on the extended reals.

  Both programs reshape x : [16, 56, 56, 384] to 50176 rows of 384, run one row-blocked region that replaces each row r
  by ((r − μ)·ρ)·w + b with μ the row's mean, ρ = rsqrt(max(E[r²] − μ², 0) + ε) — spelled operation for operation the same,
  with the same f32 words for 1/384 and ε — and reshape the rows back. They differ only in the tiling: the kernel walks an
  8 × 4 grid, staging 6272 rows and normalising 1568 of them per point; the reference walks 19 blocks of 2728 rows, the
  last of which overhangs the array by 1656 rows. A row's normalisation reads that row alone, so the tiling does not matter,
  and no law of arithmetic beyond that is used: the precondition (finite inputs) is never opened.

  The kernel's frame (at both instances) is the generated one. The reference's frame is proved by hand (RefBody), its last
  block being cut. Each side's result array is read off its frame run (KerValue, KerRun; RefValue) as the one function
  `Cert.Spec.result` of the argument arrays.
-/
import proofs.«105684_g2000602440205941_pallasbulk_374_9_alg».proof.Defs
import proofs.«105684_g2000602440205941_pallasbulk_374_9_alg».proof.Proof.Gen.Kernel
import proofs.«105684_g2000602440205941_pallasbulk_374_9_alg».proof.Proof.Gen.Kernel.Frame
import proofs.«105684_g2000602440205941_pallasbulk_374_9_alg».proof.Proof.Gen.KernelIdeal
import proofs.«105684_g2000602440205941_pallasbulk_374_9_alg».proof.Proof.Gen.KernelIdeal.Frame
import proofs.«105684_g2000602440205941_pallasbulk_374_9_alg».proof.Proof.Gen.ReferenceIdeal
import proofs.«105684_g2000602440205941_pallasbulk_374_9_alg».proof.Proof.Gen.Pre_finite_inputs
import proofs.«105684_g2000602440205941_pallasbulk_374_9_alg».proof.Proof.KerRun
import proofs.«105684_g2000602440205941_pallasbulk_374_9_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments, its cut last block included. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- From memories that agree on the arguments both programs end with the specification's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun _ h c => ⟨(h c).1.trans ?_, (h c).2⟩) (Cert.ReferenceIdeal.Hand.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
